-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6x112x16x44 : Shape := ⟨4, ![6, 112, 16, 44]⟩
abbrev S6x32x16x44 : Shape := ⟨4, ![6, 32, 16, 44]⟩
abbrev S1x6x112x16x44x2 : Shape := ⟨6, ![1, 6, 112, 16, 44, 2]⟩
abbrev S_ : Shape := ⟨0, ![]⟩

class Facts : Prop where
  bcast_S_S6x112x16x44 : S_.BroadcastsInDim S6x112x16x44 (![] : Fin 0 → Fin S6x112x16x44.rank)
  reducesTo_S6x112x16x44_S_d0_1_2_3 : S6x112x16x44.ReducesTo [0, 1, 2, 3] S_
  h_S_ : 0 < S_.numel
  bcast_S_S6x32x16x44 : S_.BroadcastsInDim S6x32x16x44 (![] : Fin 0 → Fin S6x32x16x44.rank)
  reducesTo_S6x32x16x44_S_d0_1_2_3 : S6x32x16x44.ReducesTo [0, 1, 2, 3] S_

variable [Facts]

def fn {F : FTy → Type} [FloatOps F] (main_arg0 : FVec F S6x112x16x44 .f32) (main_arg1 : FVec F S6x32x16x44 .f32) (main_arg2 : IVec S1x6x112x16x44x2 32) : IVec S_ 1 :=
  let main_v0 : FVec F S6x112x16x44 .f32 := Host.absf main_arg0
  let main_cst : FVec F S_ .f32 := constant S_ .f32 0x7F800000#32
  let main_v1 : FVec F S6x112x16x44 .f32 := broadcastInDim S6x112x16x44 ![] bcast_S_S6x112x16x44 main_cst
  let main_v2 : IVec S6x112x16x44 1 := cmpf .olt main_v0 main_v1
  let main_c : IVec S_ 1 := constantI S_ 1 1#1
  let main_v3 : IVec S_ 1 := (fun x v => Host.reduce IntOp.andi x v reducesTo_S6x112x16x44_S_d0_1_2_3 h_S_) main_v2 main_c
  let main_v4 : FVec F S6x32x16x44 .f32 := Host.absf main_arg1
  let main_cst_0 : FVec F S_ .f32 := constant S_ .f32 0x7F800000#32
  let main_v5 : FVec F S6x32x16x44 .f32 := broadcastInDim S6x32x16x44 ![] bcast_S_S6x32x16x44 main_cst_0
  let main_v6 : IVec S6x32x16x44 1 := cmpf .olt main_v4 main_v5
  let main_c_1 : IVec S_ 1 := constantI S_ 1 1#1
  let main_v7 : IVec S_ 1 := (fun x v => Host.reduce IntOp.andi x v reducesTo_S6x32x16x44_S_d0_1_2_3 h_S_) main_v6 main_c_1
  let main_v8 : IVec S_ 1 := andi main_v3 main_v7
  main_v8
-- ==== Kernel.lean ====
abbrev S6x112x16x44 : Shape := ⟨4, ![6, 112, 16, 44]⟩
abbrev S6x32x16x44 : Shape := ⟨4, ![6, 32, 16, 44]⟩
abbrev S1x6x112x16x44x2 : Shape := ⟨6, ![1, 6, 112, 16, 44, 2]⟩
abbrev S_ : Shape := ⟨0, ![]⟩
abbrev S6x16x44 : Shape := ⟨3, ![6, 16, 44]⟩
abbrev S6x1x16x44 : Shape := ⟨4, ![6, 1, 16, 44]⟩
abbrev S6x112x704 : Shape := ⟨3, ![6, 112, 704]⟩
abbrev S6x16x44x32 : Shape := ⟨4, ![6, 16, 44, 32]⟩
abbrev S6x704x32 : Shape := ⟨3, ![6, 704, 32]⟩
abbrev S6x112x22528 : Shape := ⟨3, ![6, 112, 22528]⟩
abbrev S1x16x704 : Shape := ⟨3, ![1, 16, 704]⟩
abbrev S1x704x32 : Shape := ⟨3, ![1, 704, 32]⟩
abbrev S1x16x22528 : Shape := ⟨3, ![1, 16, 22528]⟩
abbrev S1x16x704x1 : Shape := ⟨4, ![1, 16, 704, 1]⟩
abbrev S1x1x704x32 : Shape := ⟨4, ![1, 1, 704, 32]⟩
abbrev S1x16x704x32 : Shape := ⟨4, ![1, 16, 704, 32]⟩
abbrev S1x473088x32 : Shape := ⟨3, ![1, 473088, 32]⟩
abbrev S1x6x112x16x44x1 : Shape := ⟨6, ![1, 6, 112, 16, 44, 1]⟩
abbrev S1x6x112x16x44 : Shape := ⟨5, ![1, 6, 112, 16, 44]⟩
abbrev S1x473088 : Shape := ⟨2, ![1, 473088]⟩
abbrev S1 : Shape := ⟨1, ![1]⟩
abbrev S1x1 : Shape := ⟨2, ![1, 1]⟩
abbrev S473088 : Shape := ⟨1, ![473088]⟩
abbrev S473088x32 : Shape := ⟨2, ![473088, 32]⟩
abbrev S16384x32 : Shape := ⟨2, ![16384, 32]⟩
abbrev S473088x1 : Shape := ⟨2, ![473088, 1]⟩
abbrev S1x128x128x32 : Shape := ⟨4, ![1, 128, 128, 32]⟩
abbrev S1x32x128x128 : Shape := ⟨4, ![1, 32, 128, 128]⟩

abbrev nBuf : Space → Nat
  | .hbm => 47
  | .vmem => 6
  | .smem => 0
  | _ => 0

abbrev bufTy : (tb : Table) → Fin (tcTables nBuf tb) → BufTy
  | .hbm, ⟨0, _⟩ => ⟨S6x112x16x44, .f32⟩
  | .hbm, ⟨1, _⟩ => ⟨S6x32x16x44, .f32⟩
  | .hbm, ⟨2, _⟩ => ⟨S1x6x112x16x44x2, .i32⟩
  | .hbm, ⟨3, _⟩ => ⟨S_, .f32⟩
  | .hbm, ⟨4, _⟩ => ⟨S6x16x44, .f32⟩
  | .hbm, ⟨5, _⟩ => ⟨S_, .f32⟩
  | .hbm, ⟨6, _⟩ => ⟨S6x16x44, .f32⟩
  | .hbm, ⟨7, _⟩ => ⟨S6x16x44, .f32⟩
  | .hbm, ⟨8, _⟩ => ⟨S6x1x16x44, .f32⟩
  | .hbm, ⟨9, _⟩ => ⟨S6x112x16x44, .f32⟩
  | .hbm, ⟨10, _⟩ => ⟨S6x112x16x44, .f32⟩
  | .hbm, ⟨11, _⟩ => ⟨S6x112x16x44, .f32⟩
  | .hbm, ⟨12, _⟩ => ⟨S_, .f32⟩
  | .hbm, ⟨13, _⟩ => ⟨S6x16x44, .f32⟩
  | .hbm, ⟨14, _⟩ => ⟨S6x1x16x44, .f32⟩
  | .hbm, ⟨15, _⟩ => ⟨S6x112x16x44, .f32⟩
  | .hbm, ⟨16, _⟩ => ⟨S6x112x16x44, .f32⟩
  | .hbm, ⟨17, _⟩ => ⟨S6x112x704, .f32⟩
  | .hbm, ⟨18, _⟩ => ⟨S6x16x44x32, .f32⟩
  | .hbm, ⟨19, _⟩ => ⟨S6x704x32, .f32⟩
  | .hbm, ⟨20, _⟩ => ⟨S6x112x22528, .f32⟩
  | .hbm, ⟨21, _⟩ => ⟨S1x473088x32, .f32⟩
  | .hbm, ⟨22, _⟩ => ⟨S1x6x112x16x44x1, .i32⟩
  | .hbm, ⟨23, _⟩ => ⟨S1x6x112x16x44, .i32⟩
  | .hbm, ⟨24, _⟩ => ⟨S1x473088, .i32⟩
  | .hbm, ⟨25, _⟩ => ⟨S1x6x112x16x44x1, .i32⟩
  | .hbm, ⟨26, _⟩ => ⟨S1x6x112x16x44, .i32⟩
  | .hbm, ⟨27, _⟩ => ⟨S1x473088, .i32⟩
  | .hbm, ⟨28, _⟩ => ⟨S1, .i32⟩
  | .hbm, ⟨29, _⟩ => ⟨S1x1, .i32⟩
  | .hbm, ⟨30, _⟩ => ⟨S_, .i32⟩
  | .hbm, ⟨31, _⟩ => ⟨S1x1, .i32⟩
  | .hbm, ⟨32, _⟩ => ⟨S1x1, .i32⟩
  | .hbm, ⟨33, _⟩ => ⟨S_, .i32⟩
  | .hbm, ⟨34, _⟩ => ⟨S1x473088, .i32⟩
  | .hbm, ⟨35, _⟩ => ⟨S1x473088, .i32⟩
  | .hbm, ⟨36, _⟩ => ⟨S1x473088, .i32⟩
  | .hbm, ⟨37, _⟩ => ⟨S1x473088, .i32⟩
  | .hbm, ⟨38, _⟩ => ⟨S1x473088, .i32⟩
  | .hbm, ⟨39, _⟩ => ⟨S473088, .i32⟩
  | .hbm, ⟨40, _⟩ => ⟨S473088x32, .f32⟩
  | .hbm, ⟨41, _⟩ => ⟨S_, .f32⟩
  | .hbm, ⟨42, _⟩ => ⟨S16384x32, .f32⟩
  | .hbm, ⟨43, _⟩ => ⟨S473088x1, .i32⟩
  | .hbm, ⟨44, _⟩ => ⟨S16384x32, .f32⟩
  | .hbm, ⟨45, _⟩ => ⟨S1x128x128x32, .f32⟩
  | .hbm, ⟨46, _⟩ => ⟨S1x32x128x128, .f32⟩
  | .local _ .vmem, ⟨0, _⟩ => ⟨S1x16x704, .f32⟩
  | .local _ .vmem, ⟨1, _⟩ => ⟨S1x16x704, .f32⟩
  | .local _ .vmem, ⟨2, _⟩ => ⟨S1x704x32, .f32⟩
  | .local _ .vmem, ⟨3, _⟩ => ⟨S1x704x32, .f32⟩
  | .local _ .vmem, ⟨4, _⟩ => ⟨S1x16x22528, .f32⟩
  | .local _ .vmem, ⟨5, _⟩ => ⟨S1x16x22528, .f32⟩
  | _, _ => ⟨S6x112x16x44, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_v24 : Ref sig .tc := ⟨.hbm, 31, rfl⟩
abbrev main_v25 : Ref sig .tc := ⟨.hbm, 32, rfl⟩
abbrev main_c_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 7], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x22528 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S6x112x16x44_S6x16x44_d1 : S6x112x16x44.ReducesTo [1] S6x16x44
  h_S_ : 0 < S_.numel
  bcast_S_S6x16x44 : S_.BroadcastsInDim S6x16x44 (![] : Fin 0 → Fin S6x16x44.rank)
  bcast_S6x16x44_S6x1x16x44_0_2_3 : S6x16x44.BroadcastsInDim S6x1x16x44 (![0, 2, 3] : Fin 3 → Fin S6x1x16x44.rank)
  bcast_S6x1x16x44_S6x112x16x44_0_1_2_3 : S6x1x16x44.BroadcastsInDim S6x112x16x44 (![0, 1, 2, 3] : Fin 4 → Fin S6x112x16x44.rank)
  shapeCasts_S6x112x16x44_S6x112x704 : S6x112x16x44.ShapeCasts S6x112x704
  transposes_S6x32x16x44_S6x16x44x32_0_2_3_1 : S6x32x16x44.Transposes [0, 2, 3, 1] S6x16x44x32
  shapeCasts_S6x16x44x32_S6x704x32 : S6x16x44x32.ShapeCasts S6x704x32
  inb_S1x16x704_S1x16x704_0_0_0 : ∀ a, (![0, 0, 0] : Fin 3 → Nat) a + S1x16x704.size a ≤ S1x16x704.size a
  h_S1x16x704 : 0 < S1x16x704.numel
  shapeCasts_S1x16x704_S1x16x704 : S1x16x704.ShapeCasts S1x16x704
  inb_S1x704x32_S1x704x32_0_0_0 : ∀ a, (![0, 0, 0] : Fin 3 → Nat) a + S1x704x32.size a ≤ S1x704x32.size a
  h_S1x704x32 : 0 < S1x704x32.numel
  shapeCasts_S1x704x32_S1x704x32 : S1x704x32.ShapeCasts S1x704x32
  shapeCasts_S1x16x704_S1x16x704x1 : S1x16x704.ShapeCasts S1x16x704x1
  shapeCasts_S1x704x32_S1x1x704x32 : S1x704x32.ShapeCasts S1x1x704x32
  broadcasts_S1x16x704x1_S1x16x704x32 : S1x16x704x1.Broadcasts S1x16x704x32
  broadcasts_S1x1x704x32_S1x16x704x32 : S1x1x704x32.Broadcasts S1x16x704x32
  shapeCasts_S1x16x704x32_S1x16x22528 : S1x16x704x32.ShapeCasts S1x16x22528
  inb_S1x16x22528_S1x16x22528_0_0_0 : ∀ a, (![0, 0, 0] : Fin 3 → Nat) a + S1x16x22528.size a ≤ S1x16x22528.size a
  h_S1x16x22528 : 0 < S1x16x22528.numel
  shapeCasts_S6x112x22528_S1x473088x32 : S6x112x22528.ShapeCasts S1x473088x32
  slices_S1x6x112x16x44x2_S1x6x112x16x44x1_0_0_0_0_0_0 : S1x6x112x16x44x2.Slices ![0, 0, 0, 0, 0, 0] S1x6x112x16x44x1
  shapeCasts_S1x6x112x16x44x1_S1x6x112x16x44 : S1x6x112x16x44x1.ShapeCasts S1x6x112x16x44
  shapeCasts_S1x6x112x16x44_S1x473088 : S1x6x112x16x44.ShapeCasts S1x473088
  slices_S1x6x112x16x44x2_S1x6x112x16x44x1_0_0_0_0_0_1 : S1x6x112x16x44x2.Slices ![0, 0, 0, 0, 0, 1] S1x6x112x16x44x1
  bcast_S1_S1x1_0 : S1.BroadcastsInDim S1x1 (![0] : Fin 1 → Fin S1x1.rank)
  bcast_S_S1x1 : S_.BroadcastsInDim S1x1 (![] : Fin 0 → Fin S1x1.rank)
  bcast_S_S1x473088 : S_.BroadcastsInDim S1x473088 (![] : Fin 0 → Fin S1x473088.rank)
  bcast_S1x1_S1x473088_0_1 : S1x1.BroadcastsInDim S1x473088 (![0, 1] : Fin 2 → Fin S1x473088.rank)
  shapeCasts_S1x473088_S473088 : S1x473088.ShapeCasts S473088
  shapeCasts_S1x473088x32_S473088x32 : S1x473088x32.ShapeCasts S473088x32
  bcast_S_S16384x32 : S_.BroadcastsInDim S16384x32 (![] : Fin 0 → Fin S16384x32.rank)
  bcast_S473088_S473088x1_0 : S473088.BroadcastsInDim S473088x1 (![0] : Fin 1 → Fin S473088x1.rank)
  shapeCasts_S16384x32_S1x128x128x32 : S16384x32.ShapeCasts S1x128x128x32
  transposes_S1x128x128x32_S1x32x128x128_0_3_1_2 : S1x128x128x32.Transposes [0, 3, 1, 2] S1x32x128x128
  scatter_S16384x32_S473088x1_S473088x32_1_0_0_1_wf : ScatterDims.WF S16384x32 S473088x1 S473088x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x704.size a ≤ S6x112x704.size a
  hwx0_0 : ∀ i : grid0.Coords, EltTy.bits .f32 = 32 ∨ (Rect.block (s := S6x112x704) S1x16x704.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x704x32.size a ≤ S6x704x32.size a
  hwx0_1 : ∀ i : grid0.Coords, EltTy.bits .f32 = 32 ∨ (Rect.block (s := S6x704x32) S1x704x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x22528.size a ≤ S6x112x22528.size a
  hwx0_2 : ∀ i : grid0.Coords, EltTy.bits .f32 = 32 ∨ (Rect.block (s := S6x112x22528) S1x16x22528.size (cc0_transform_2 i) (hinb0_2 i)).WholeWords (EltTy.packing .f32)

variable [Facts₀]

def scatter_S16384x32_S473088x1_S473088x32_1_0_0_1 : ScatterDims S16384x32 S473088x1 S473088x32 where
  updateWindowDims := [1]
  insertedWindowDims := [0]
  scatterDimsToOperandDims := [0]
  indexVectorDim := 1
  wf := scatter_S16384x32_S473088x1_S473088x32_1_0_0_1_wf

abbrev win0_0 : Pipeline.Window sig grid0 :=
  Pipeline.Window.ofSpec (Memref.whole main_v11) S1x16x704.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x704x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x16x22528.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S6x112x16x44 : Shape := ⟨4, ![6, 112, 16, 44]⟩
abbrev S6x32x16x44 : Shape := ⟨4, ![6, 32, 16, 44]⟩
abbrev S1x6x112x16x44x2 : Shape := ⟨6, ![1, 6, 112, 16, 44, 2]⟩
abbrev S_ : Shape := ⟨0, ![]⟩
abbrev S6x16x44 : Shape := ⟨3, ![6, 16, 44]⟩
abbrev S6x1x16x44 : Shape := ⟨4, ![6, 1, 16, 44]⟩
abbrev S6x16x44x32 : Shape := ⟨4, ![6, 16, 44, 32]⟩
abbrev S6x112x16x44x1 : Shape := ⟨5, ![6, 112, 16, 44, 1]⟩
abbrev S6x1x16x44x32 : Shape := ⟨5, ![6, 1, 16, 44, 32]⟩
abbrev S6x112x16x44x32 : Shape := ⟨5, ![6, 112, 16, 44, 32]⟩
abbrev S1x473088x32 : Shape := ⟨3, ![1, 473088, 32]⟩
abbrev S1x6x112x16x44x1 : Shape := ⟨6, ![1, 6, 112, 16, 44, 1]⟩
abbrev S1x6x112x16x44 : Shape := ⟨5, ![1, 6, 112, 16, 44]⟩
abbrev S1x473088 : Shape := ⟨2, ![1, 473088]⟩
abbrev S1 : Shape := ⟨1, ![1]⟩
abbrev S1x1 : Shape := ⟨2, ![1, 1]⟩
abbrev S473088 : Shape := ⟨1, ![473088]⟩
abbrev S473088x32 : Shape := ⟨2, ![473088, 32]⟩
abbrev S16384x32 : Shape := ⟨2, ![16384, 32]⟩
abbrev S473088x1 : Shape := ⟨2, ![473088, 1]⟩
abbrev S1x128x128x32 : Shape := ⟨4, ![1, 128, 128, 32]⟩
abbrev S1x32x128x128 : Shape := ⟨4, ![1, 32, 128, 128]⟩

abbrev nBuf : Space → Nat
  | .hbm => 49
  | .vmem => 0
  | .smem => 0
  | _ => 0

abbrev bufTy : (tb : Table) → Fin (tcTables nBuf tb) → BufTy
  | .hbm, ⟨0, _⟩ => ⟨S6x112x16x44, .f32⟩
  | .hbm, ⟨1, _⟩ => ⟨S6x32x16x44, .f32⟩
  | .hbm, ⟨2, _⟩ => ⟨S1x6x112x16x44x2, .i32⟩
  | .hbm, ⟨3, _⟩ => ⟨S_, .f32⟩
  | .hbm, ⟨4, _⟩ => ⟨S6x16x44, .f32⟩
  | .hbm, ⟨5, _⟩ => ⟨S_, .f32⟩
  | .hbm, ⟨6, _⟩ => ⟨S6x16x44, .f32⟩
  | .hbm, ⟨7, _⟩ => ⟨S6x16x44, .f32⟩
  | .hbm, ⟨8, _⟩ => ⟨S6x1x16x44, .f32⟩
  | .hbm, ⟨9, _⟩ => ⟨S6x112x16x44, .f32⟩
  | .hbm, ⟨10, _⟩ => ⟨S6x112x16x44, .f32⟩
  | .hbm, ⟨11, _⟩ => ⟨S6x112x16x44, .f32⟩
  | .hbm, ⟨12, _⟩ => ⟨S_, .f32⟩
  | .hbm, ⟨13, _⟩ => ⟨S6x16x44, .f32⟩
  | .hbm, ⟨14, _⟩ => ⟨S6x1x16x44, .f32⟩
  | .hbm, ⟨15, _⟩ => ⟨S6x112x16x44, .f32⟩
  | .hbm, ⟨16, _⟩ => ⟨S6x112x16x44, .f32⟩
  | .hbm, ⟨17, _⟩ => ⟨S6x16x44x32, .f32⟩
  | .hbm, ⟨18, _⟩ => ⟨S6x112x16x44x1, .f32⟩
  | .hbm, ⟨19, _⟩ => ⟨S6x1x16x44x32, .f32⟩
  | .hbm, ⟨20, _⟩ => ⟨S6x112x16x44x32, .f32⟩
  | .hbm, ⟨21, _⟩ => ⟨S6x112x16x44x32, .f32⟩
  | .hbm, ⟨22, _⟩ => ⟨S6x112x16x44x32, .f32⟩
  | .hbm, ⟨23, _⟩ => ⟨S1x473088x32, .f32⟩
  | .hbm, ⟨24, _⟩ => ⟨S1x6x112x16x44x1, .i32⟩
  | .hbm, ⟨25, _⟩ => ⟨S1x6x112x16x44, .i32⟩
  | .hbm, ⟨26, _⟩ => ⟨S1x473088, .i32⟩
  | .hbm, ⟨27, _⟩ => ⟨S1x6x112x16x44x1, .i32⟩
  | .hbm, ⟨28, _⟩ => ⟨S1x6x112x16x44, .i32⟩
  | .hbm, ⟨29, _⟩ => ⟨S1x473088, .i32⟩
  | .hbm, ⟨30, _⟩ => ⟨S1, .i32⟩
  | .hbm, ⟨31, _⟩ => ⟨S1x1, .i32⟩
  | .hbm, ⟨32, _⟩ => ⟨S_, .i32⟩
  | .hbm, ⟨33, _⟩ => ⟨S1x1, .i32⟩
  | .hbm, ⟨34, _⟩ => ⟨S1x1, .i32⟩
  | .hbm, ⟨35, _⟩ => ⟨S_, .i32⟩
  | .hbm, ⟨36, _⟩ => ⟨S1x473088, .i32⟩
  | .hbm, ⟨37, _⟩ => ⟨S1x473088, .i32⟩
  | .hbm, ⟨38, _⟩ => ⟨S1x473088, .i32⟩
  | .hbm, ⟨39, _⟩ => ⟨S1x473088, .i32⟩
  | .hbm, ⟨40, _⟩ => ⟨S1x473088, .i32⟩
  | .hbm, ⟨41, _⟩ => ⟨S473088, .i32⟩
  | .hbm, ⟨42, _⟩ => ⟨S473088x32, .f32⟩
  | .hbm, ⟨43, _⟩ => ⟨S_, .f32⟩
  | .hbm, ⟨44, _⟩ => ⟨S16384x32, .f32⟩
  | .hbm, ⟨45, _⟩ => ⟨S473088x1, .i32⟩
  | .hbm, ⟨46, _⟩ => ⟨S16384x32, .f32⟩
  | .hbm, ⟨47, _⟩ => ⟨S1x128x128x32, .f32⟩
  | .hbm, ⟨48, _⟩ => ⟨S1x32x128x128, .f32⟩
  | _, _ => ⟨S6x112x16x44, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_v26 : Ref sig .tc := ⟨.hbm, 33, rfl⟩
abbrev main_v27 : Ref sig .tc := ⟨.hbm, 34, rfl⟩
abbrev main_c_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]

class Facts₀ : Prop where
  reducesTo_S6x112x16x44_S6x16x44_d1 : S6x112x16x44.ReducesTo [1] S6x16x44
  h_S_ : 0 < S_.numel
  bcast_S_S6x16x44 : S_.BroadcastsInDim S6x16x44 (![] : Fin 0 → Fin S6x16x44.rank)
  bcast_S6x16x44_S6x1x16x44_0_2_3 : S6x16x44.BroadcastsInDim S6x1x16x44 (![0, 2, 3] : Fin 3 → Fin S6x1x16x44.rank)
  bcast_S6x1x16x44_S6x112x16x44_0_1_2_3 : S6x1x16x44.BroadcastsInDim S6x112x16x44 (![0, 1, 2, 3] : Fin 4 → Fin S6x112x16x44.rank)
  transposes_S6x32x16x44_S6x16x44x32_0_2_3_1 : S6x32x16x44.Transposes [0, 2, 3, 1] S6x16x44x32
  bcast_S6x112x16x44_S6x112x16x44x1_0_1_2_3 : S6x112x16x44.BroadcastsInDim S6x112x16x44x1 (![0, 1, 2, 3] : Fin 4 → Fin S6x112x16x44x1.rank)
  bcast_S6x16x44x32_S6x1x16x44x32_0_2_3_4 : S6x16x44x32.BroadcastsInDim S6x1x16x44x32 (![0, 2, 3, 4] : Fin 4 → Fin S6x1x16x44x32.rank)
  bcast_S6x112x16x44x1_S6x112x16x44x32_0_1_2_3_4 : S6x112x16x44x1.BroadcastsInDim S6x112x16x44x32 (![0, 1, 2, 3, 4] : Fin 5 → Fin S6x112x16x44x32.rank)
  bcast_S6x1x16x44x32_S6x112x16x44x32_0_1_2_3_4 : S6x1x16x44x32.BroadcastsInDim S6x112x16x44x32 (![0, 1, 2, 3, 4] : Fin 5 → Fin S6x112x16x44x32.rank)
  shapeCasts_S6x112x16x44x32_S1x473088x32 : S6x112x16x44x32.ShapeCasts S1x473088x32
  slices_S1x6x112x16x44x2_S1x6x112x16x44x1_0_0_0_0_0_0 : S1x6x112x16x44x2.Slices ![0, 0, 0, 0, 0, 0] S1x6x112x16x44x1
  shapeCasts_S1x6x112x16x44x1_S1x6x112x16x44 : S1x6x112x16x44x1.ShapeCasts S1x6x112x16x44
  shapeCasts_S1x6x112x16x44_S1x473088 : S1x6x112x16x44.ShapeCasts S1x473088
  slices_S1x6x112x16x44x2_S1x6x112x16x44x1_0_0_0_0_0_1 : S1x6x112x16x44x2.Slices ![0, 0, 0, 0, 0, 1] S1x6x112x16x44x1
  bcast_S1_S1x1_0 : S1.BroadcastsInDim S1x1 (![0] : Fin 1 → Fin S1x1.rank)
  bcast_S_S1x1 : S_.BroadcastsInDim S1x1 (![] : Fin 0 → Fin S1x1.rank)
  bcast_S_S1x473088 : S_.BroadcastsInDim S1x473088 (![] : Fin 0 → Fin S1x473088.rank)
  bcast_S1x1_S1x473088_0_1 : S1x1.BroadcastsInDim S1x473088 (![0, 1] : Fin 2 → Fin S1x473088.rank)
  shapeCasts_S1x473088_S473088 : S1x473088.ShapeCasts S473088
  shapeCasts_S1x473088x32_S473088x32 : S1x473088x32.ShapeCasts S473088x32
  bcast_S_S16384x32 : S_.BroadcastsInDim S16384x32 (![] : Fin 0 → Fin S16384x32.rank)
  bcast_S473088_S473088x1_0 : S473088.BroadcastsInDim S473088x1 (![0] : Fin 1 → Fin S473088x1.rank)
  shapeCasts_S16384x32_S1x128x128x32 : S16384x32.ShapeCasts S1x128x128x32
  transposes_S1x128x128x32_S1x32x128x128_0_3_1_2 : S1x128x128x32.Transposes [0, 3, 1, 2] S1x32x128x128
  scatter_S16384x32_S473088x1_S473088x32_1_0_0_1_wf : ScatterDims.WF S16384x32 S473088x1 S473088x32 [1] [0] [0] 1

variable [Facts₀]

def scatter_S16384x32_S473088x1_S473088x32_1_0_0_1 : ScatterDims S16384x32 S473088x1 S473088x32 where
  updateWindowDims := [1]
  insertedWindowDims := [0]
  scatterDimsToOperandDims := [0]
  indexVectorDim := 1
  wf := scatter_S16384x32_S473088x1_S473088x32_1_0_0_1_wf

class Facts : Prop extends Facts₀ where

variable [Facts]
-- ==== Proof.Payload.lean ====
/-
  The body of the lift, read at one element.

  The body loads a block of depths `x0 : [1, 16, 704]` (one camera, sixteen depth bins, the 16·44 = 704 pixels) and
  the camera's context block `x1 : [1, 704, 32]` (pixels × channels), forms the outer product
  `x0[·, r, p] · x1[·, p, ch]` as a `[1, 16, 704, 32]` value — each factor first given a unit axis and then
  broadcast along it — and stores it re-laid lane-dense as `[1, 16, 704·32]`.  A lane `l < 22528` of the stored row is
  therefore pixel `l / 32`, channel `l % 32`: the re-lay keeps row-major positions, and
  `(r·704 + l/32)·32 + l%32 = r·22528 + l`.
-/
import proofs.«147404_j38903813767426_2_alg».proof.Proof.Gen.KernelIdeal.Skeleton
import Idealize.ShloMosaic.Lib.Pipeline.Value
import Idealize.ShloMosaic.Lib.ValueIdx
import Idealize.ShloMosaic.PureOps.Ideal

noncomputable section

namespace Cert.KernelIdeal.Lift

open Idealize.ShloMosaic Idealize.ShloMosaic.ValueIdx Cert.KernelIdeal Cert.KernelIdeal.Gen

/-- The pixel a lane of the lane-dense row belongs to. -/
abbrev pixOf (l : Fin 22528) : Fin 704 := ⟨l.val / 32, by have := l.isLt; omega⟩
/-- The channel a lane of the lane-dense row belongs to. -/
abbrev chanOf (l : Fin 22528) : Fin 32 := ⟨l.val % 32, Nat.mod_lt _ (by decide)⟩

/-- The stored value at row `r`, lane `l` is the depth at (`r`, pixel of `l`) times the context at (pixel of `l`,
    channel of `l`). -/
theorem pay_at (x0 : Vec Ideal S1x16x704 .f32) (x1 : Vec Ideal S1x704x32 .f32) (z : Fin 1) (r : Fin 16) (l : Fin 22528) :
    k0_pay1 (F := Ideal) x0 x1 (ix3 z r l) = x0 (ix3 z r (pixOf l)) * x1 (ix3 z (pixOf l) (chanOf l)) := by
  have hz : z.val = 0 := by have := z.isLt; omega
  have hl : l.val < 22528 := l.isLt
  unfold k0_pay1
  -- the lane-dense re-lay: same row-major position in [1, 16, 704, 32]
  refine (shapeCast_apply _ shapeCasts_S1x16x704x32_S1x16x22528 (ix3 z r l) (ix4 z r (pixOf l) (chanOf l)) ?_).trans ?_
  · rw [Shape.rowMajor_val_four, Shape.rowMajor_val_three]
    show ((z.val * 16 + r.val) * 704 + l.val / 32) * 32 + l.val % 32 = (z.val * 16 + r.val) * 22528 + l.val
    omega
  rw [mulf_apply]
  congr 1
  · -- the depth factor: broadcast along the channel axis of the block given a trailing unit axis
    refine (broadcastTo_apply _ broadcasts_S1x16x704x1_S1x16x704x32 (ix4 z r (pixOf l) (chanOf l)) (ix4 z r (pixOf l) (0 : Fin 1)) ?_).trans ?_
    · intro a
      match a with
      | ⟨0, _⟩ => show z.val = if (1 : Nat) = 1 then 0 else z.val; rw [if_pos rfl]; exact hz
      | ⟨1, _⟩ => show r.val = if (16 : Nat) = 1 then 0 else r.val; rw [if_neg (by decide)]
      | ⟨2, _⟩ => show l.val / 32 = if (704 : Nat) = 1 then 0 else l.val / 32; rw [if_neg (by decide)]
      | ⟨3, _⟩ => show 0 = if (1 : Nat) = 1 then 0 else l.val % 32; rw [if_pos rfl]
    refine (shapeCast_apply _ shapeCasts_S1x16x704_S1x16x704x1 (ix4 z r (pixOf l) (0 : Fin 1)) (ix3 z r (pixOf l)) ?_).trans ?_
    · rw [Shape.rowMajor_val_three, Shape.rowMajor_val_four]
      show (z.val * 16 + r.val) * 704 + l.val / 32 = ((z.val * 16 + r.val) * 704 + l.val / 32) * 1 + 0
      omega
    rw [shapeCast_self]
  · -- the context factor: broadcast along the depth-bin axis of the block given a unit axis there
    refine (broadcastTo_apply _ broadcasts_S1x1x704x32_S1x16x704x32 (ix4 z r (pixOf l) (chanOf l)) (ix4 z (0 : Fin 1) (pixOf l) (chanOf l)) ?_).trans ?_
    · intro a
      match a with
      | ⟨0, _⟩ => show z.val = if (1 : Nat) = 1 then 0 else z.val; rw [if_pos rfl]; exact hz
      | ⟨1, _⟩ => show 0 = if (1 : Nat) = 1 then 0 else r.val; rw [if_pos rfl]
      | ⟨2, _⟩ => show l.val / 32 = if (704 : Nat) = 1 then 0 else l.val / 32; rw [if_neg (by decide)]
      | ⟨3, _⟩ => show l.val % 32 = if (32 : Nat) = 1 then 0 else l.val % 32; rw [if_neg (by decide)]
    refine (shapeCast_apply _ shapeCasts_S1x704x32_S1x1x704x32 (ix4 z (0 : Fin 1) (pixOf l) (chanOf l)) (ix3 z (pixOf l) (chanOf l)) ?_).trans ?_
    · rw [Shape.rowMajor_val_three, Shape.rowMajor_val_four]
      show (z.val * 704 + l.val / 32) * 32 + l.val % 32 = ((z.val * 1 + 0) * 704 + l.val / 32) * 32 + l.val % 32
      omega
    rw [shapeCast_self]

/-- The depth entry of the block that the stored entry `y` reads: same row, the lane's pixel. -/
abbrev dLoc (y : S1x16x22528.Idx) : S1x16x704.Idx :=
  ix3 (⟨(y 0).val, (y 0).isLt⟩ : Fin 1) (⟨(y 1).val, (y 1).isLt⟩ : Fin 16) (pixOf ⟨(y 2).val, (y 2).isLt⟩)
/-- The context entry of the block that the stored entry `y` reads: the lane's pixel and channel. -/
abbrev cLoc (y : S1x16x22528.Idx) : S1x704x32.Idx :=
  ix3 (⟨(y 0).val, (y 0).isLt⟩ : Fin 1) (pixOf ⟨(y 2).val, (y 2).isLt⟩) (chanOf ⟨(y 2).val, (y 2).isLt⟩)

/-- `pay_at` at any index of the stored block. -/
theorem pay_idx (x0 : Vec Ideal S1x16x704 .f32) (x1 : Vec Ideal S1x704x32 .f32) (y : S1x16x22528.Idx) :
    k0_pay1 (F := Ideal) x0 x1 y = x0 (dLoc y) * x1 (cLoc y) := by
  have hy : y = ix3 (⟨(y 0).val, (y 0).isLt⟩ : Fin 1) (⟨(y 1).val, (y 1).isLt⟩ : Fin 16) (⟨(y 2).val, (y 2).isLt⟩ : Fin 22528) :=
    funext fun a => match a with
      | ⟨0, _⟩ => rfl
      | ⟨1, _⟩ => rfl
      | ⟨2, _⟩ => rfl
  exact (congrArg (k0_pay1 (F := Ideal) x0 x1) hy).trans (pay_at x0 x1 _ _ _)

/-! ## The lift of whole arrays -/

/-- The depth entry the lifted entry `j` reads: same camera and depth bin, the lane's pixel. -/
abbrev dOf (j : S6x112x22528.Idx) : S6x112x704.Idx := fun a => match a with
  | ⟨0, _⟩ => ⟨(j 0).val, (j 0).isLt⟩
  | ⟨1, _⟩ => ⟨(j 1).val, (j 1).isLt⟩
  | ⟨2, _⟩ => ⟨(j 2).val / 32, by have h : (j 2).val < 22528 := (j 2).isLt; show (j 2).val / 32 < 704; omega⟩

/-- The context entry the lifted entry `j` reads: same camera, the lane's pixel and channel. -/
abbrev cOf (j : S6x112x22528.Idx) : S6x704x32.Idx := fun a => match a with
  | ⟨0, _⟩ => ⟨(j 0).val, (j 0).isLt⟩
  | ⟨1, _⟩ => ⟨(j 2).val / 32, by have h : (j 2).val < 22528 := (j 2).isLt; show (j 2).val / 32 < 704; omega⟩
  | ⟨2, _⟩ => ⟨(j 2).val % 32, by show (j 2).val % 32 < 32; omega⟩

/-- The outer-product lift of a depth array `D : [6, 112, 704]` and a context array `C : [6, 704, 32]`, lane-dense:
    `lifted D C (n, d, l) = D (n, d, l / 32) · C (n, l / 32, l % 32)`. -/
def lifted (D : S6x112x704.Idx → EReal) (C : S6x704x32.Idx → EReal) : S6x112x22528.Idx → EReal :=
  fun j => D (dOf j) * C (cOf j)

end Cert.KernelIdeal.Lift

end
-- ==== Proof.Blocks.lean ====
/-
  From the blocks a grid point writes back to the whole lifted array.

  The grid is 6 cameras × 7 tiles of sixteen depth bins.  Point (n, k) reads rows `16k … 16k+15` of camera `n` of the
  depth array `D : [6, 112, 704]`, the whole context block of camera `n` of `C : [6, 704, 32]`, and writes back rows
  `16k … 16k+15` of camera `n` of the output `[6, 112, 22528]`.  Every block is a restriction of ONE function of `D`
  and `C`,
      lifted D C (n, d, l) = D (n, d, l / 32) · C (n, l / 32, l % 32),
  and the 42 blocks tile the output, so the output array ends holding `lifted D C`.
-/
import proofs.«147404_j38903813767426_2_alg».proof.Proof.Gen.KernelIdeal.Frame
import proofs.«147404_j38903813767426_2_alg».proof.Proof.Payload
import Idealize.ShloMosaic.Lib.Pipeline.Value
import Idealize.ShloMosaic.Lib.ValueIdx

noncomputable section

namespace Cert.KernelIdeal.Lift

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem hz : (![0, 0, 0] : Fin 3 → Nat) = fun _ => 0 := funext fun a => by fin_cases a <;> rfl

/-- The printed index maps over the 42 points: the depth window moves with the output window on the camera and the
    depth-tile axes, the context window on the camera axis only; every other block index is zero. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (2 : Fin 3) = 0 :=
  (by decide +kernel : ∀ t : Fin grid0.N, _)

/-- Every (camera, depth tile) is some point's output block. -/
theorem idx_onto : ∀ (q0 : Fin 6) (q1 : Fin 7), ∃ t : Fin cfg0.N, win0_2.index t = ![q0.val, q1.val, 0] :=
  (by decide +kernel : ∀ (q0 : Fin 6) (q1 : Fin 7), ∃ t : Fin grid0.N, win0_2.index t = ![q0.val, q1.val, 0])

/-- An entry of the depth window's block at point `t` is the depth array at block index × block size + the entry's own
    coordinate, axis by axis. -/
theorem depth_blk (c : Dev nD) (t : Fin cfg0.N) (x : S1x16x704.Idx) (k : S6x112x704.Idx)
    (h0 : win0_0.index t (0 : Fin 3) * 1 + 1 * (x 0).val = (k 0).val)
    (h1 : win0_0.index t (1 : Fin 3) * 16 + 1 * (x 1).val = (k 1).val)
    (h2 : win0_0.index t (2 : Fin 3) * 704 + 1 * (x 2).val = (k 2).val) :
    (iblk m c 0 t : Vec Ideal S1x16x704 .f32) x = (V m c main_v11 : S6x112x704.Idx → EReal) k := by
  unfold iblk
  rw [View.read_apply]
  show (V m c main_v11 : S6x112x704.Idx → EReal) _ = _
  refine congrArg (V m c main_v11 : S6x112x704.Idx → EReal) (funext fun a => Fin.ext ?_)
  match a with
  | ⟨0, _⟩ => exact h0
  | ⟨1, _⟩ => exact h1
  | ⟨2, _⟩ => exact h2

/-- The same for the context window's block. -/
theorem ctx_blk (c : Dev nD) (t : Fin cfg0.N) (x : S1x704x32.Idx) (k : S6x704x32.Idx)
    (h0 : win0_1.index t (0 : Fin 3) * 1 + 1 * (x 0).val = (k 0).val)
    (h1 : win0_1.index t (1 : Fin 3) * 704 + 1 * (x 1).val = (k 1).val)
    (h2 : win0_1.index t (2 : Fin 3) * 32 + 1 * (x 2).val = (k 2).val) :
    (iblk m c 1 t : Vec Ideal S1x704x32 .f32) x = (V m c main_v13 : S6x704x32.Idx → EReal) k := by
  unfold iblk
  rw [View.read_apply]
  show (V m c main_v13 : S6x704x32.Idx → EReal) _ = _
  refine congrArg (V m c main_v13 : S6x704x32.Idx → EReal) (funext fun a => Fin.ext ?_)
  match a with
  | ⟨0, _⟩ => exact h0
  | ⟨1, _⟩ => exact h1
  | ⟨2, _⟩ => exact h2

/-- What point `t` writes back is block `t` of the lift of the depth and context arrays as the region finds them. -/
theorem flushed_eq (c : Dev nD) (t : Fin cfg0.N) :
    (dats m 0 c).flushed 2 t
      = ((cfg0.win 2).blk t).view.read (Elt Ideal) (lifted (V m c main_v11) (V m c main_v13)) := by
  show (cfg0.win 2).cut (grid0.coords t) ((dats m 0 c).after 2 t) = _
  rw [after0_2]
  unfold out0_2
  rw [View.canon_unit_zero hz]
  simp only [View.ld_unit_zero (S := S1x16x704) hz, View.ld_unit_zero (S := S1x704x32) hz]
  obtain ⟨e0, e1, e2, e3, e4, e5, e6⟩ := idx_facts t
  funext y
  show k0_pay1 (F := Ideal) (iblk m c 0 t : Vec Ideal S1x16x704 .f32) (iblk m c 1 t : Vec Ideal S1x704x32 .f32) (y : S1x16x22528.Idx)
    = lifted (V m c main_v11) (V m c main_v13) (((cfg0.win 2).blk t).view.emb y)
  refine (pay_idx _ _ y).trans ?_
  unfold lifted
  have hy2 : (y 2).val < 22528 := (y 2).isLt
  have hy0 : (y 0).val < 1 := (y 0).isLt
  refine congrArg₂ (fun a b : EReal => a * b) ?_ ?_
  · refine depth_blk m c t (dLoc y) (dOf (((cfg0.win 2).blk t).view.emb y)) ?_ ?_ ?_
    · show win0_0.index t (0 : Fin 3) * 1 + 1 * (y 0).val = win0_2.index t (0 : Fin 3) * 1 + 1 * (y 0).val
      omega
    · show win0_0.index t (1 : Fin 3) * 16 + 1 * (y 1).val = win0_2.index t (1 : Fin 3) * 16 + 1 * (y 1).val
      omega
    · show win0_0.index t (2 : Fin 3) * 704 + 1 * ((y 2).val / 32) = (win0_2.index t (2 : Fin 3) * 22528 + 1 * (y 2).val) / 32
      omega
  · refine ctx_blk m c t (cLoc y) (cOf (((cfg0.win 2).blk t).view.emb y)) ?_ ?_ ?_
    · show win0_1.index t (0 : Fin 3) * 1 + 1 * (y 0).val = win0_2.index t (0 : Fin 3) * 1 + 1 * (y 0).val
      omega
    · show win0_1.index t (1 : Fin 3) * 704 + 1 * ((y 2).val / 32) = (win0_2.index t (2 : Fin 3) * 22528 + 1 * (y 2).val) / 32
      omega
    · show win0_1.index t (2 : Fin 3) * 32 + 1 * ((y 2).val % 32) = (win0_2.index t (2 : Fin 3) * 22528 + 1 * (y 2).val) % 32
      omega

/-- An index of the output array is in point `t`'s block iff each coordinate is in the block's range on its axis. -/
theorem mem_blk (t : Fin cfg0.N) (i : S6x112x22528.Idx) :
    i ∈ ((cfg0.win 2).blk t).view.set
      ↔ ∀ a : Fin 3, win0_2.index t a * S1x16x22528.size a ≤ (i a).val ∧ (i a).val < win0_2.index t a * S1x16x22528.size a + S1x16x22528.size a := by
  show i ∈ ((View.whole main_v14).slice (win0_2.rect t)).set ↔ _
  rw [View.set_slice_whole, Rect.mem_set_unit]
  exact Iff.rfl

/-- The blocks tile the output: entry (n, d, l) is in the block of the point at camera `n`, depth tile `d / 16`. -/
theorem cover (i : S6x112x22528.Idx) :
    ∃ t : Fin cfg0.N, (cfg0.win 2).flush t = true ∧ i ∈ ((cfg0.win 2).blk t).view.set := by
  have hi0 : (i 0).val < 6 := (i 0).isLt
  have hi1 : (i 1).val < 112 := (i 1).isLt
  have hi2 : (i 2).val < 22528 := (i 2).isLt
  obtain ⟨t, ht⟩ := idx_onto ⟨(i 0).val, hi0⟩ ⟨(i 1).val / 16, by omega⟩
  have q0 : win0_2.index t (0 : Fin 3) = (i 0).val := congrFun ht 0
  have q1 : win0_2.index t (1 : Fin 3) = (i 1).val / 16 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 16 ≤ (i 1).val ∧ (i 1).val < win0_2.index t (1 : Fin 3) * 16 + 16; omega
  | ⟨2, _⟩ => show win0_2.index t (2 : Fin 3) * 22528 ≤ (i 2).val ∧ (i 2).val < win0_2.index t (2 : Fin 3) * 22528 + 22528; omega

/-- The output array after the run is the lift of the depth and context arrays as the region finds them. -/
theorem final (c : Dev nD) : (dats m 0 c).arrAt 2 cfg0.N = lifted (V m c main_v11) (V m c main_v13) :=
  (dats m 0 c).arrAt_eq_of_cover 2 (lifted (V m c main_v11) (V m c main_v13)) (fun t _ => flushed_eq m c t) cover

end Cert.KernelIdeal.Lift

end
-- ==== Proof.Prefix.lean ====
/-
  The two arrays the region reads, as the host lines before it leave them.

  Before the region @main computes the softmax of the logits over the depth-bin axis and views it `[6, 112, 704]` (the
  16 × 44 pixels flattened), and transposes the context to channels-last and views it `[6, 704, 32]`.  These are the
  same operations, in the same order, as the first lines of the reference, so each array is a re-lay of the
  reference's own stage: of its softmax `val_main_v10` and of its transposed context `val_main_v11`.
-/
import proofs.«147404_j38903813767426_2_alg».proof.Proof.Gen.KernelIdeal.Frame
import proofs.«147404_j38903813767426_2_alg».proof.Proof.Gen.ReferenceIdeal.Read
import Idealize.ShloMosaic.Lib.StableHlo.Run

noncomputable section

namespace Cert.KernelIdeal.Lift

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The depth array the region finds is the softmax of the logits, pixels flattened. -/
theorem depth_entry (c : Dev nD) :
    (V m c main_v11 : S6x112x704.Idx → EReal)
      = shapeCast S6x112x704 (Cert.ReferenceIdeal.Read.val_main_v10 (F := Ideal) (m ((c : Thread nD τ).loc main_arg0)))
          shapeCasts_S6x112x16x44_S6x112x704 := by
  show StableHlo.after hostOps0 (fun b => m (c, b)) (Proc.devRef .tc main_v11) = _
  after_results
  rfl

/-- The context array the region finds is the context transposed to channels-last, pixels flattened. -/
theorem ctx_entry (c : Dev nD) :
    (V m c main_v13 : S6x704x32.Idx → EReal)
      = shapeCast S6x704x32 (Cert.ReferenceIdeal.Read.val_main_v11 (F := Ideal) (m ((c : Thread nD τ).loc main_arg1)))
          shapeCasts_S6x16x44x32_S6x704x32 := by
  show StableHlo.after hostOps0 (fun b => m (c, b)) (Proc.devRef .tc main_v13) = _
  after_results
  rfl

end Cert.KernelIdeal.Lift

end
-- ==== Proof.Tail.lean ====
/-
  The reference, split at its array of lifted points.

  The reference computes the points `pts : [1, 473088, 32]` — for every camera `n`, depth bin `d`, pixel `(h, w)` and
  channel `ch` the product `softmax_d(logits)[n, d, h, w] · context[n, ch, h, w]`, laid out row-major with the point
  `((n·112 + d)·16 + h)·44 + w` on the middle axis — and then POOLS them: it scatter-adds the 473088 rows into the
  16384 cells named by the geometry, and re-lays the cells as `[1, 32, 128, 128]`.  The pooling reads the points only as
  the updates of the scatter, so it is one function `pool pts geom`, and the reference's result is `pool` of its points.
  The points themselves are read at an index as the product of one softmax entry and one context entry.
-/
import proofs.«147404_j38903813767426_2_alg».proof.Proof.Gen.ReferenceIdeal.Read

noncomputable section

namespace Cert.ReferenceIdeal.Splat

open Idealize.ShloMosaic Cert.ReferenceIdeal Cert.ReferenceIdeal.Gen Cert.ReferenceIdeal.Read

/-- Voxel pooling: the rows of `pts` scatter-added into the zero `[16384, 32]` array at the cells `y·128 + x` read off the
    geometry `geom`, then viewed `[1, 128, 128, 32]` and transposed to channels-first. -/
def pool (pts : (⟨S1x473088x32, .f32⟩ : BufTy).Contents (Elt Ideal)) (geom : (⟨S1x6x112x16x44x2, .i32⟩ : BufTy).Contents (Elt Ideal)) :
    (⟨S1x32x128x128, .f32⟩ : BufTy).Contents (Elt Ideal) :=
  transpose S1x32x128x128 [0, 3, 1, 2]
    (shapeCast _
      (Host.scatterAdd (F := Ideal) (φ := .f32) scatter_S16384x32_S473088x1_S473088x32_1_0_0_1 (val_main_v35 (F := Ideal)) (val_main_v36 (F := Ideal) geom)
        (shapeCast _ pts shapeCasts_S1x473088x32_S473088x32))
      shapeCasts_S16384x32_S1x128x128x32)
    transposes_S1x128x128x32_S1x32x128x128_0_3_1_2

/-- The reference's result is the pooling of its points. -/
theorem result_eq_pool (x0 : (⟨S6x112x16x44, .f32⟩ : BufTy).Contents (Elt Ideal)) (x1 : (⟨S6x32x16x44, .f32⟩ : BufTy).Contents (Elt Ideal))
    (x2 : (⟨S1x6x112x16x44x2, .i32⟩ : BufTy).Contents (Elt Ideal)) :
    val_main_v39 (F := Ideal) x0 x1 x2 = pool (val_main_v17 (F := Ideal) x0 x1) x2 := rfl

/-- The row-major position of an entry of the points array. -/
abbrev pos (i : S1x473088x32.Idx) : Nat := ((i 0).val * 473088 + (i 1).val) * 32 + (i 2).val

theorem pos_lt (i : S1x473088x32.Idx) : pos i < 15138816 := by
  have h0 : (i 0).val < 1 := (i 0).isLt
  have h1 : (i 1).val < 473088 := (i 1).isLt
  have h2 : (i 2).val < 32 := (i 2).isLt
  show ((i 0).val * 473088 + (i 1).val) * 32 + (i 2).val < 15138816
  omega

/-- The softmax entry a point reads: camera, depth bin, pixel row, pixel column. -/
abbrev depthIdx (i : S1x473088x32.Idx) : S6x112x16x44.Idx := fun a => match a with
  | ⟨0, _⟩ => ⟨pos i / 2523136, by have := pos_lt i; show pos i / 2523136 < 6; omega⟩
  | ⟨1, _⟩ => ⟨pos i / 22528 % 112, by show pos i / 22528 % 112 < 112; omega⟩
  | ⟨2, _⟩ => ⟨pos i / 1408 % 16, by show pos i / 1408 % 16 < 16; omega⟩
  | ⟨3, _⟩ => ⟨pos i / 32 % 44, by show pos i / 32 % 44 < 44; omega⟩

/-- The context entry a point reads: camera, channel, pixel row, pixel column. -/
abbrev ctxIdx (i : S1x473088x32.Idx) : S6x32x16x44.Idx := fun a => match a with
  | ⟨0, _⟩ => ⟨pos i / 2523136, by have := pos_lt i; show pos i / 2523136 < 6; omega⟩
  | ⟨1, _⟩ => ⟨pos i % 32, by show pos i % 32 < 32; omega⟩
  | ⟨2, _⟩ => ⟨pos i / 1408 % 16, by show pos i / 1408 % 16 < 16; omega⟩
  | ⟨3, _⟩ => ⟨pos i / 32 % 44, by show pos i / 32 % 44 < 44; omega⟩

/-- A point is one softmax entry times one context entry. -/
theorem points_at (x0 : (⟨S6x112x16x44, .f32⟩ : BufTy).Contents (Elt Ideal)) (x1 : (⟨S6x32x16x44, .f32⟩ : BufTy).Contents (Elt Ideal))
    (i : S1x473088x32.Idx) :
    val_main_v17 (F := Ideal) x0 x1 i = val_main_v10 (F := Ideal) x0 (depthIdx i) * x1 (ctxIdx i) := by
  rw [val_main_v17_apply, val_main_v16_apply, val_main_v14_apply, val_main_v12_apply, val_main_v15_apply, val_main_v13_apply,
    val_main_v11_apply]
  have hd : idx_main_v12 (idx_main_v14 (idx_main_v17 i)) = depthIdx i := by
    funext a
    match a with
    | ⟨0, _⟩ => rfl
    | ⟨1, _⟩ => rfl
    | ⟨2, _⟩ => rfl
    | ⟨3, _⟩ => rfl
  have hc : idx_main_v11 (idx_main_v13 (idx_main_v15 (idx_main_v17 i))) = ctxIdx i := by
    funext a
    match a with
    | ⟨0, _⟩ => rfl
    | ⟨1, _⟩ => rfl
    | ⟨2, _⟩ => rfl
    | ⟨3, _⟩ => rfl
  rw [hd, hc]
  rfl

end Cert.ReferenceIdeal.Splat

end
-- ==== Proof.LiftEq.lean ====
/-
  The lane-dense lift, viewed as points, is the reference's array of points.

  Let `p = q·32 + ch` be the row-major position of an entry (point `q`, channel `ch`) of the `[1, 473088, 32]` points
  array.  On the kernel's side the entry is the entry of the `[6, 112, 22528]` lift at the same position, that is at
  camera `p / 2523136`, depth bin `p / 22528 % 112`, lane `p % 22528`; the lift reads the flattened softmax at pixel
  `(p % 22528) / 32` and the flattened channels-last context at that pixel and channel `p % 32`.  Un-flattening the pixel
  (`/ 44`, `% 44`) gives pixel row `p / 1408 % 16` and column `p / 32 % 44` — exactly the coordinates at which the
  reference's five-axis product `[6, 112, 16, 44, 32]` is read at position `p`.  Both sides are then the same product
  of the same softmax entry and the same context entry, in the same order.
-/
import proofs.«147404_j38903813767426_2_alg».proof.Proof.Payload
import proofs.«147404_j38903813767426_2_alg».proof.Proof.Tail
import Idealize.ShloMosaic.Lib.Pipeline.Value

noncomputable section

namespace Cert.KernelIdeal.Lift

open Idealize.ShloMosaic Cert.KernelIdeal Cert.KernelIdeal.Gen
open Cert.ReferenceIdeal.Splat (pos pos_lt depthIdx ctxIdx points_at)

/-- The entry of the lift at the row-major position of the points entry `i`. -/
abbrev liftIdx (i : S1x473088x32.Idx) : S6x112x22528.Idx := fun a => match a with
  | ⟨0, _⟩ => ⟨pos i / 2523136, by have := pos_lt i; show pos i / 2523136 < 6; omega⟩
  | ⟨1, _⟩ => ⟨pos i / 22528 % 112, by show pos i / 22528 % 112 < 112; omega⟩
  | ⟨2, _⟩ => ⟨pos i % 22528, by show pos i % 22528 < 22528; omega⟩

/-- The entry of the channels-last context `[6, 16, 44, 32]` the points entry `i` reads. -/
abbrev ctxLastIdx (i : S1x473088x32.Idx) : Cert.ReferenceIdeal.S6x16x44x32.Idx := fun a => match a with
  | ⟨0, _⟩ => ⟨pos i / 2523136, by have := pos_lt i; show pos i / 2523136 < 6; omega⟩
  | ⟨1, _⟩ => ⟨pos i / 1408 % 16, by show pos i / 1408 % 16 < 16; omega⟩
  | ⟨2, _⟩ => ⟨pos i / 32 % 44, by show pos i / 32 % 44 < 44; omega⟩
  | ⟨3, _⟩ => ⟨pos i % 32, by show pos i % 32 < 32; omega⟩

/-- The lift of the flattened softmax and the flattened channels-last context, viewed `[1, 473088, 32]`, is the
    reference's array of points. -/
theorem lift_eq_points (x0 : (⟨Cert.ReferenceIdeal.S6x112x16x44, .f32⟩ : BufTy).Contents (Elt Ideal))
    (x1 : (⟨Cert.ReferenceIdeal.S6x32x16x44, .f32⟩ : BufTy).Contents (Elt Ideal)) :
    shapeCast S1x473088x32
        (lifted (shapeCast S6x112x704 (Cert.ReferenceIdeal.Read.val_main_v10 (F := Ideal) x0) shapeCasts_S6x112x16x44_S6x112x704)
          (shapeCast S6x704x32 (Cert.ReferenceIdeal.Read.val_main_v11 (F := Ideal) x1) shapeCasts_S6x16x44x32_S6x704x32))
        shapeCasts_S6x112x22528_S1x473088x32
      = Cert.ReferenceIdeal.Read.val_main_v17 (F := Ideal) x0 x1 := by
  funext i
  have hp : pos i < 15138816 := pos_lt i
  rw [points_at]
  refine (shapeCast_apply _ shapeCasts_S6x112x22528_S1x473088x32 i (liftIdx i) ?_).trans ?_
  · rw [Shape.rowMajor_val_three, Shape.rowMajor_val_three]
    show (pos i / 2523136 * 112 + pos i / 22528 % 112) * 22528 + pos i % 22528 = pos i
    omega
  unfold lifted
  congr 1
  · refine shapeCast_apply _ shapeCasts_S6x112x16x44_S6x112x704 (dOf (liftIdx i)) (depthIdx i) ?_
    rw [Shape.rowMajor_val_four, Shape.rowMajor_val_three]
    show ((pos i / 2523136 * 112 + pos i / 22528 % 112) * 16 + pos i / 1408 % 16) * 44 + pos i / 32 % 44
      = (pos i / 2523136 * 112 + pos i / 22528 % 112) * 704 + pos i % 22528 / 32
    omega
  · refine (shapeCast_apply _ shapeCasts_S6x16x44x32_S6x704x32 (cOf (liftIdx i)) (ctxLastIdx i) ?_).trans ?_
    · rw [Shape.rowMajor_val_four, Shape.rowMajor_val_three]
      show ((pos i / 2523136 * 16 + pos i / 1408 % 16) * 44 + pos i / 32 % 44) * 32 + pos i % 32
        = (pos i / 2523136 * 704 + pos i % 22528 / 32) * 32 + pos i % 22528 % 32
      omega
    rw [Cert.ReferenceIdeal.Read.val_main_v11_apply]
    refine congrArg x1 (funext fun a => ?_)
    match a with
    | ⟨0, _⟩ => rfl
    | ⟨1, _⟩ => rfl
    | ⟨2, _⟩ => rfl
    | ⟨3, _⟩ => rfl

end Cert.KernelIdeal.Lift

end
-- ==== Proof.KernelValue.lean ====
/-
  The kernel's result.

  After the region the host lines view the lane-dense lift `[6, 112, 22528]` as points `[1, 473088, 32]` and pool
  them with the geometry, line for line as the reference pools its own points.  So the kernel's result is `pool` of the
  lift viewed as points, the lift is that of the softmax and the channels-last context the region found, and that
  view IS the reference's array of points: the kernel ends at the reference's own expression of the arguments.
-/
import proofs.«147404_j38903813767426_2_alg».proof.Proof.Blocks
import proofs.«147404_j38903813767426_2_alg».proof.Proof.Prefix
import proofs.«147404_j38903813767426_2_alg».proof.Proof.LiftEq
import proofs.«147404_j38903813767426_2_alg».proof.Proof.Tail
import Idealize.ShloMosaic.Lib.StableHlo.Run

noncomputable section

namespace Cert.KernelIdeal.Lift

open Idealize.ShloMosaic Idealize.ShloMosaic.TcCoe Idealize.SL.Sem Idealize.ShloMosaic.StableHlo
open Cert.KernelIdeal Cert.KernelIdeal.Gen
open Cert.ReferenceIdeal.Splat (pool)

variable (m : (ℓ : Loc nD τ sig) → Buf (Elt Ideal) ℓ) (ρ : Dev nD → PrngReg)

set_option maxHeartbeats 2000000 in
/-- The lines after the region pool the region's output array, viewed as points, with the geometry argument. -/
theorem tail_eq_pool (c : Dev nD) :
    Pipeline.afterTail₀ cfgs (dats m) 0 (V0 m) [hostOps1] c main_v37
      = pool (shapeCast S1x473088x32 ((dats m 0 c).arrAt 2 cfg0.N) shapeCasts_S6x112x22528_S1x473088x32)
          (m ((c : Thread nD τ).loc main_arg2)) := by
  have hA : Pipeline.withArrays spec0 c (V0 m c) (fun w => (dats m 0 c).arrAt w cfg0.N) (Proc.devRef .tc main_v14)
      = (dats m 0 c).arrAt 2 cfg0.N :=
    Pipeline.withArrays_arr spec0 launch0.win.arr_inj c _ _ 2
  have hG : Pipeline.withArrays spec0 c (V0 m c) (fun w => (dats m 0 c).arrAt w cfg0.N) (Proc.devRef .tc main_arg2)
      = m ((c : Thread nD τ).loc main_arg2) :=
    (Pipeline.withArrays_of_ne spec0 c (V0 m c) _ main_arg2 (by decide)).trans (V_main_arg2 m c)
  unfold Pipeline.afterTail₀
  show StableHlo.after hostOps1 (Pipeline.withArrays spec0 c (V0 m c) (fun w => (dats m 0 c).arrAt w cfg0.N))
      (Proc.devRef .tc main_v37) = _
  after_results_simp
  rw [hA, hG]
  generalize (dats m 0 c).arrAt 2 cfg0.N = A
  generalize m ((c : Thread nD τ).loc main_arg2) = g
  rfl

/-- The region's output array, viewed as points, is the reference's array of points of the arguments. -/
theorem points_eq (c : Dev nD) :
    shapeCast S1x473088x32 ((dats m 0 c).arrAt 2 cfg0.N) shapeCasts_S6x112x22528_S1x473088x32
      = Cert.ReferenceIdeal.Read.val_main_v17 (F := Ideal) (m ((c : Thread nD τ).loc main_arg0)) (m ((c : Thread nD τ).loc main_arg1)) := by
  rw [final m c, depth_entry m c, ctx_entry m c]
  exact lift_eq_points _ _

/-- The kernel's run, read: the result at the reference's expression of the arguments, the arguments unchanged. -/
theorem run : θ_run defs (onTc (τ := τ) (main (F := Ideal))) ⟨m, fun _ => 0, ρ⟩ fun r => ∀ c : Dev nD,
      r.2.mem ((c : Thread nD τ).loc main_v37)
        = Cert.ReferenceIdeal.Read.val_main_v39 (F := Ideal) (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v37 (Pipeline.mem_restRefs_of main_v37 (by decide) (by decide))).trans
        ((tail_eq_pool m c).trans ((congrArg (fun p => pool p (m ((c : Thread nD τ).loc main_arg2))) (points_eq m c)).trans
          (Cert.ReferenceIdeal.Splat.result_eq_pool _ _ _).symm)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Lift

end
-- ==== Proof.lean ====
/-
  Lift-splat voxel pooling: a tiled outer-product kernel against the plain jnp program.

  Both programs take depth logits `[6, 112, 16, 44]`, context features `[6, 32, 16, 44]` and integer geometry
  `[1, 6, 112, 16, 44, 2]`; both form, for every camera `n`, depth bin `d`, pixel `(h, w)` and channel `ch`, the point
  `softmax_d(logits)[n, d, h, w] · context[n, ch, h, w]`, and both scatter-add the 473088 points into the 128 × 128
  cells the geometry names and return the cells channels-first.  They differ only in how the points are produced:
  the reference by one broadcast multiply over `[6, 112, 16, 44, 32]`, the kernel by a grid of 6 × 7 blocks, each
  multiplying sixteen depth bins of one camera's softmax `[16, 704]` against that camera's context `[704, 32]` and
  storing the products lane-dense, pixel-major then channel, as `[16, 22528]`.

  At the ideal instance the two arrays of points are equal entry by entry — the same softmax entry times the same
  context entry, in the same order, so no law of the extended reals is used and the inputs' finiteness is never
  opened — once the row-major position `p` of an entry is decoded on both sides: lane `p % 22528` of the kernel's row
  is pixel `(p % 22528) / 32 = (p / 1408 % 16)·44 + p / 32 % 44` and channel `p % 32`.  The pooling that follows is one
  and the same function of the points and the geometry in both programs and is carried whole.

  The idealization rewrote nothing, so the kernel's sanctioned idealization is its own text and that claim is trivial;
  the three frames are the generated frame runs (the reference's is its generated run with the result dropped).
-/
import proofs.«147404_j38903813767426_2_alg».proof.Defs
import proofs.«147404_j38903813767426_2_alg».proof.Proof.Gen.Kernel
import proofs.«147404_j38903813767426_2_alg».proof.Proof.Gen.Kernel.Skeleton
import proofs.«147404_j38903813767426_2_alg».proof.Proof.Gen.Kernel.Launch
import proofs.«147404_j38903813767426_2_alg».proof.Proof.Gen.Kernel.Points
import proofs.«147404_j38903813767426_2_alg».proof.Proof.Gen.Kernel.Frame
import proofs.«147404_j38903813767426_2_alg».proof.Proof.Gen.KernelIdeal
import proofs.«147404_j38903813767426_2_alg».proof.Proof.Gen.KernelIdeal.Skeleton
import proofs.«147404_j38903813767426_2_alg».proof.Proof.Gen.KernelIdeal.Launch
import proofs.«147404_j38903813767426_2_alg».proof.Proof.Gen.KernelIdeal.Points
import proofs.«147404_j38903813767426_2_alg».proof.Proof.Gen.KernelIdeal.Frame
import proofs.«147404_j38903813767426_2_alg».proof.Proof.Gen.ReferenceIdeal
import proofs.«147404_j38903813767426_2_alg».proof.Proof.Gen.Pre_finite_inputs
import proofs.«147404_j38903813767426_2_alg».proof.Proof.Gen.ReferenceIdeal.Run
import proofs.«147404_j38903813767426_2_alg».proof.Proof.Gen.ReferenceIdeal.Read
import proofs.«147404_j38903813767426_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The idealized reference runs and keeps its arguments: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the three arguments both programs end at the reference's expression of them: the
    pooling of the points `softmax · context` with the geometry. -/
theorem algebraic : Cert.algebraic_KernelIdeal_ReferenceIdeal := by
  intro m ρ m' ρ' _ hagree
  refine ⟨fun c => Cert.ReferenceIdeal.Read.val_main_v39 (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Lift.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.Read.val_main_v39_eq _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
